-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000x128 : Shape := ⟨2, ![1600000, 128]⟩
abbrev S256x256 : Shape := ⟨2, ![256, 256]⟩
abbrev S256 : Shape := ⟨1, ![256]⟩
abbrev S128x256 : Shape := ⟨2, ![128, 256]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x128 : S_.BroadcastsInDim S1600000x128 (![] : Fin 0 → Fin S1600000x128.rank)
  reducesTo_S1600000x128_S_d0_1 : S1600000x128.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x256 .f32) (main_arg6 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S128x256 .f32 := Host.absf main_arg5
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S100000x128 .f32) (main_arg1 : IVec S2x1600000 32) (main_arg2 : FVec F S1600000x128 .f32) (main_arg3 : FVec F S256x256 .f32) (main_arg4 : FVec F S256 .f32) (main_arg5 : FVec F S128x256 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x128 .f32 := Host.absf main_arg2
  let main_cst_0 : FVec F S_ .f32 := constant S_ .f32 0x7F800000#32
  let main_v5 : FVec F S1600000x128 .f32 := broadcastInDim S1600000x128 ![] bcast_S_S1600000x128 main_cst_0
  let main_v6 : IVec S1600000x128 1 := cmpf .olt main_v4 main_v5
  let main_c_1 : IVec S_ 1 := constantI S_ 1 1#1
  let main_v7 : IVec S_ 1 := (fun x v => Host.reduce IntOp.andi x v reducesTo_S1600000x128_S_d0_1 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_v13 main_v16
-- ==== Kernel.lean ====
abbrev S100000x128 : Shape := ⟨2, ![100000, 128]⟩
abbrev S2x1600000 : Shape := ⟨2, ![2, 1600000]⟩
abbrev S1600000x128 : Shape := ⟨2, ![1600000, 128]⟩
abbrev S256x256 : Shape := ⟨2, ![256, 256]⟩
abbrev S256 : Shape := ⟨1, ![256]⟩
abbrev S128x256 : Shape := ⟨2, ![128, 256]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000 : Shape := ⟨1, ![100000]⟩
abbrev S100000x1 : Shape := ⟨2, ![100000, 1]⟩
abbrev S256x128 : Shape := ⟨2, ![256, 128]⟩
abbrev S5000x128 : Shape := ⟨2, ![5000, 128]⟩
abbrev S5000x256 : Shape := ⟨2, ![5000, 256]⟩
abbrev S1x256 : Shape := ⟨2, ![1, 256]⟩
abbrev S1x128 : Shape := ⟨2, ![1, 128]⟩

abbrev nBuf : Space → Nat
  | .hbm => 28
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x128, .f32⟩
  | .hbm, ⟨3, _⟩ => ⟨S256x256, .f32⟩
  | .hbm, ⟨4, _⟩ => ⟨S256, .f32⟩
  | .hbm, ⟨5, _⟩ => ⟨S128x256, .f32⟩
  | .hbm, ⟨6, _⟩ => ⟨S128, .f32⟩
  | .hbm, ⟨7, _⟩ => ⟨S1x1600000, .i32⟩
  | .hbm, ⟨8, _⟩ => ⟨S1600000, .i32⟩
  | .hbm, ⟨9, _⟩ => ⟨S_, .f32⟩
  | .hbm, ⟨10, _⟩ => ⟨S100000x128, .f32⟩
  | .hbm, ⟨11, _⟩ => ⟨S1600000x1, .i32⟩
  | .hbm, ⟨12, _⟩ => ⟨S100000x128, .f32⟩
  | .hbm, ⟨13, _⟩ => ⟨S_, .f32⟩
  | .hbm, ⟨14, _⟩ => ⟨S1600000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000x1, .f32⟩
  | .hbm, ⟨23, _⟩ => ⟨S100000x128, .f32⟩
  | .hbm, ⟨24, _⟩ => ⟨S100000x128, .f32⟩
  | .hbm, ⟨25, _⟩ => ⟨S256x128, .f32⟩
  | .hbm, ⟨26, _⟩ => ⟨S256x128, .f32⟩
  | .hbm, ⟨27, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S256x128, .f32⟩
  | .local _ .vmem, ⟨5, _⟩ => ⟨S256x128, .f32⟩
  | .local _ .vmem, ⟨6, _⟩ => ⟨S256, .f32⟩
  | .local _ .vmem, ⟨7, _⟩ => ⟨S128x256, .f32⟩
  | .local _ .vmem, ⟨8, _⟩ => ⟨S128, .f32⟩
  | .local _ .vmem, ⟨9, _⟩ => ⟨S5000x128, .f32⟩
  | .local _ .vmem, ⟨10, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x1600000_S1x1600000_1_0 : S2x1600000.Slices ![1, 0] S1x1600000
  shapeCasts_S1x1600000_S1600000 : S1x1600000.ShapeCasts S1600000
  bcast_S_S100000x128 : S_.BroadcastsInDim S100000x128 (![] : Fin 0 → Fin S100000x128.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S256x256_S256x128_0_0 : S256x256.Slices ![0, 0] S256x128
  slices_S256x256_S256x128_0_128 : S256x256.Slices ![0, 128] S256x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S256_S256_0 : ∀ a, (![0] : Fin 1 → Nat) a + S256.size a ≤ S256.size a
  h_S256 : 0 < S256.numel
  inb_S128x256_S128x256_0_0 : ∀ a, (![0, 0] : Fin 2 → Nat) a + S128x256.size a ≤ S128x256.size a
  h_S128x256 : 0 < S128x256.numel
  inb_S128_S128_0 : ∀ a, (![0] : Fin 1 → Nat) a + S128.size a ≤ S128.size a
  h_S128 : 0 < S128.numel
  transposes_S256x128_p1_0_S128x256 : S256x128.Transposes [1, 0] S128x256
  shapeCasts_S256_S1x256 : S256.ShapeCasts S1x256
  broadcasts_S1x256_S5000x256 : S1x256.Broadcasts S5000x256
  transposes_S128x256_p1_0_S256x128 : S128x256.Transposes [1, 0] S256x128
  shapeCasts_S128_S1x128 : S128.ShapeCasts S1x128
  broadcasts_S1x128_S5000x128 : S1x128.Broadcasts S5000x128
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x256_S5000x256_1_0_0_1_n_n_wf : DotDims.WF S5000x128 S128x256 S5000x256 [1] [0] [0] [1] [] []
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .f32 = 32 ∨ (Rect.block (s := S128x256) S128x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S100000x128.size a
  hwx0_7 : ∀ i : grid0.Coords, EltTy.bits .f32 = 32 ∨ (Rect.block (s := S100000x128) S5000x128.size (cc0_transform_7 i) (hinb0_7 i)).WholeWords (EltTy.packing .f32)

variable [Facts₀]

def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v16) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000x128 : Shape := ⟨2, ![1600000, 128]⟩
abbrev S256x256 : Shape := ⟨2, ![256, 256]⟩
abbrev S256 : Shape := ⟨1, ![256]⟩
abbrev S128x256 : Shape := ⟨2, ![128, 256]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000 : Shape := ⟨1, ![100000]⟩
abbrev S100000x1 : Shape := ⟨2, ![100000, 1]⟩
abbrev S100000x256 : Shape := ⟨2, ![100000, 256]⟩
abbrev S1x256 : Shape := ⟨2, ![1, 256]⟩
abbrev S256x128 : Shape := ⟨2, ![256, 128]⟩
abbrev S1x128 : Shape := ⟨2, ![1, 128]⟩

abbrev nBuf : Space → Nat
  | .hbm => 39
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x128, .f32⟩
  | .hbm, ⟨3, _⟩ => ⟨S256x256, .f32⟩
  | .hbm, ⟨4, _⟩ => ⟨S256, .f32⟩
  | .hbm, ⟨5, _⟩ => ⟨S128x256, .f32⟩
  | .hbm, ⟨6, _⟩ => ⟨S128, .f32⟩
  | .hbm, ⟨7, _⟩ => ⟨S1x1600000, .i32⟩
  | .hbm, ⟨8, _⟩ => ⟨S1600000, .i32⟩
  | .hbm, ⟨9, _⟩ => ⟨S_, .f32⟩
  | .hbm, ⟨10, _⟩ => ⟨S100000x128, .f32⟩
  | .hbm, ⟨11, _⟩ => ⟨S1600000x1, .i32⟩
  | .hbm, ⟨12, _⟩ => ⟨S100000x128, .f32⟩
  | .hbm, ⟨13, _⟩ => ⟨S_, .f32⟩
  | .hbm, ⟨14, _⟩ => ⟨S1600000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000x1, .f32⟩
  | .hbm, ⟨23, _⟩ => ⟨S100000x128, .f32⟩
  | .hbm, ⟨24, _⟩ => ⟨S100000x128, .f32⟩
  | .hbm, ⟨25, _⟩ => ⟨S100000x256, .f32⟩
  | .hbm, ⟨26, _⟩ => ⟨S256x256, .f32⟩
  | .hbm, ⟨27, _⟩ => ⟨S100000x256, .f32⟩
  | .hbm, ⟨28, _⟩ => ⟨S1x256, .f32⟩
  | .hbm, ⟨29, _⟩ => ⟨S100000x256, .f32⟩
  | .hbm, ⟨30, _⟩ => ⟨S100000x256, .f32⟩
  | .hbm, ⟨31, _⟩ => ⟨S_, .f32⟩
  | .hbm, ⟨32, _⟩ => ⟨S100000x256, .f32⟩
  | .hbm, ⟨33, _⟩ => ⟨S100000x256, .f32⟩
  | .hbm, ⟨34, _⟩ => ⟨S256x128, .f32⟩
  | .hbm, ⟨35, _⟩ => ⟨S100000x128, .f32⟩
  | .hbm, ⟨36, _⟩ => ⟨S1x128, .f32⟩
  | .hbm, ⟨37, _⟩ => ⟨S100000x128, .f32⟩
  | .hbm, ⟨38, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call0_cst : Ref sig .tc := ⟨.hbm, 31, rfl⟩
abbrev main_call0_v0 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]

class Facts₀ : Prop where
  slices_S2x1600000_S1x1600000_1_0 : S2x1600000.Slices ![1, 0] S1x1600000
  shapeCasts_S1x1600000_S1600000 : S1x1600000.ShapeCasts S1600000
  bcast_S_S100000x128 : S_.BroadcastsInDim S100000x128 (![] : Fin 0 → Fin S100000x128.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  concatenates_S100000x128_S100000x128_S100000x256_d1 : Shape.Concatenates [S100000x128, S100000x128] S100000x256 1
  transposes_S256x256_S256x256_1_0 : S256x256.Transposes [1, 0] S256x256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  transposes_S128x256_S256x128_1_0 : S128x256.Transposes [1, 0] S256x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x256_S256x256_S100000x256_1_0_0_1_n_n_wf : DotDims.WF S100000x256 S256x256 S100000x256 [1] [0] [0] [1] [] []
  dot_S100000x256_S256x128_S100000x128_1_0_0_1_n_n_wf : DotDims.WF S100000x256 S256x128 S100000x128 [1] [0] [0] [1] [] []

variable [Facts₀]

def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.MlpSpec.lean ====
/-
  The node update as one function of its arrays, over the extended reals.

  Node `r` carries a feature row `x r` (128 entries) and an aggregated edge row `agg r` (128 entries). The hidden
  layer has 256 units: unit `k` is

      h r k = (∑ a < 128, x r a · Wa k a) + (∑ a < 128, agg r a · Wb k a) + b1 k,

  where `Wa` and `Wb` are the two halves of the first weight matrix (columns 0..127 act on `x`, columns 128..255 on
  `agg`). The output is

      out r j = (∑ k < 256, max (h r k) 0 · W2 j k) + b2 j.

  `G0` states this with the two halves as separate arrays (how a program that never joins `x` and `agg` reads it);
  `G` states it with one 256 × 256 matrix whose halves are its column ranges. A program that first joins the two rows
  into one row of 256 entries and multiplies by the whole matrix computes `∑ a < 256, cat r a · W1 k a`; splitting that
  sum at 128 (`sum_split`) gives the two sums above. The split uses only that addition is commutative and associative,
  so it holds for every extended real, the infinities included.
-/
import Idealize.ShloMosaic.PureOps.Ideal
import Idealize.ShloMosaic.Lib.ValueIdx

noncomputable section

namespace Cert.MlpSpec

open Idealize.ShloMosaic Idealize.ShloMosaic.ValueIdx

/-- A rank-2 array of extended reals. -/
abbrev Arr2 (r c : Nat) : Type := (⟨2, ![r, c]⟩ : Shape).Idx → EReal
/-- A rank-1 array of extended reals. -/
abbrev Arr1 (n : Nat) : Type := (⟨1, ![n]⟩ : Shape).Idx → EReal

/-- Column `a` of the first half of a row of 256. -/
abbrev lo (a : Fin 128) : Fin 256 := ⟨a.val, by have := a.isLt; omega⟩
/-- Column `a` of the second half of a row of 256. -/
abbrev hi (a : Fin 128) : Fin 256 := ⟨128 + a.val, by have := a.isLt; omega⟩

/-- A sum over 256 indices is the sum over the first 128 plus the sum over the last 128. -/
theorem sum_split {M : Type*} [AddCommMonoid M] (f : Fin 256 → M) :
    ∑ a : Fin 256, f a = (∑ a : Fin 128, f (lo a)) + ∑ a : Fin 128, f (hi a) := by
  have h := Fin.sum_univ_add (a := 128) (b := 128) (f : Fin (128 + 128) → M)
  exact h

/-- Hidden unit `k` of node `r` before the rectifier, the first weight matrix given as its two halves. -/
def hidden0 (x agg : Arr2 100000 128) (Wa Wb : Arr2 256 128) (b1 : Arr1 256) (r : Fin 100000) (k : Fin 256) : EReal :=
  ((∑ a : Fin 128, x (ix2 r a) * Wa (ix2 k a)) + ∑ a : Fin 128, agg (ix2 r a) * Wb (ix2 k a)) + b1 (ix1 k)

/-- The output array, the first weight matrix given as its two halves. -/
def G0 (x agg : Arr2 100000 128) (Wa Wb : Arr2 256 128) (b1 : Arr1 256) (W2 : Arr2 128 256) (b2 : Arr1 128) :
    Arr2 100000 128 := fun i =>
  (∑ k : Fin 256, max (hidden0 x agg Wa Wb b1 (i 0) k) 0 * W2 (ix2 (i 1) k)) + b2 (ix1 (i 1))

/-- The first 128 columns of a 256 × 256 matrix. -/
def colsLo (W1 : Arr2 256 256) : Arr2 256 128 := fun j => W1 (ix2 (j 0) (lo (j 1)))
/-- The last 128 columns of a 256 × 256 matrix. -/
def colsHi (W1 : Arr2 256 256) : Arr2 256 128 := fun j => W1 (ix2 (j 0) (hi (j 1)))

/-- The output array, the first weight matrix whole. -/
def G (x agg : Arr2 100000 128) (W1 : Arr2 256 256) (b1 : Arr1 256) (W2 : Arr2 128 256) (b2 : Arr1 128) :
    Arr2 100000 128 :=
  G0 x agg (colsLo W1) (colsHi W1) b1 W2 b2

end Cert.MlpSpec

end
-- ==== Proof.RefValue.lean ====
/-
  The reference computes the node update `MlpSpec.G`.

  The reference joins each node's feature row and its aggregated edge row into one row of 256 entries, multiplies by the
  transposed first weight matrix (a sum over all 256 columns), adds the bias, rectifies, multiplies by the transposed second
  weight matrix and adds the output bias. Column `a < 128` of the joined row is the feature entry `a`; column `128 + a`
  is the aggregated entry `a`. So the 256-term sum splits at 128 into the feature sum against the first 128 columns of the
  weights and the aggregated sum against the last 128 (`MlpSpec.sum_split`): the hidden unit of the specification.
  The aggregated array itself (a scatter-add divided by the clamped counts) is kept as one unopened array throughout.
-/
import proofs.«154645_j15307263443166_1_alg».proof.Proof.Gen.ReferenceIdeal.Read
import proofs.«154645_j15307263443166_1_alg».proof.Proof.MlpSpec

noncomputable section

namespace Cert.ReferenceIdeal.RefValue

open Cert.ReferenceIdeal Cert.ReferenceIdeal.Read Idealize.ShloMosaic Idealize.ShloMosaic.ValueIdx Cert.MlpSpec

/-! ## The joined row -/

/-- A column of the first half of the joined row is the node's feature entry. -/
theorem joined_lo (x0 : (⟨S100000x128, .f32⟩ : BufTy).Contents (Elt Ideal)) (x1 : (⟨S2x1600000, .i32⟩ : BufTy).Contents (Elt Ideal)) (x2 : (⟨S1600000x128, .f32⟩ : BufTy).Contents (Elt Ideal)) (r : Fin 100000) (a : Fin 128) :
    val_main_v14 (F := Ideal) x0 x1 x2 (ix2 r (lo a)) = x0 (ix2 r a) := by
  unfold val_main_v14
  exact concatenate_pair_apply_left (t := S100000x256) (s₁ := S100000x128) (s₂ := S100000x128) (1 : Fin S100000x256.rank) _ _ _
    (ix2 r (lo a)) rfl (ix2 r a)
    (fun b => match b with
      | ⟨0, _⟩ => rfl
      | ⟨1, _⟩ => rfl)

/-- A column of the second half of the joined row is the node's aggregated entry. -/
theorem joined_hi (x0 : (⟨S100000x128, .f32⟩ : BufTy).Contents (Elt Ideal)) (x1 : (⟨S2x1600000, .i32⟩ : BufTy).Contents (Elt Ideal)) (x2 : (⟨S1600000x128, .f32⟩ : BufTy).Contents (Elt Ideal)) (r : Fin 100000) (a : Fin 128) :
    val_main_v14 (F := Ideal) x0 x1 x2 (ix2 r (hi a)) = val_main_v13 (F := Ideal) x1 x2 (ix2 r a) := by
  unfold val_main_v14
  exact concatenate_pair_apply_right (t := S100000x256) (s₁ := S100000x128) (s₂ := S100000x128) (1 : Fin S100000x256.rank) _ _ _
    (ix2 r (hi a)) rfl rfl (ix2 r a)
    (fun b hb => match b, hb with
      | ⟨0, _⟩, _ => rfl
      | ⟨1, _⟩, hb => absurd rfl hb)
    (by show a.val + 128 = 128 + a.val; omega)

/-! ## The hidden layer before the rectifier -/

/-- The reference's hidden unit `k` of node `r`: its one 256-term sum is the specification's two 128-term sums. -/
theorem hidden_eq (x0 : (⟨S100000x128, .f32⟩ : BufTy).Contents (Elt Ideal)) (x1 : (⟨S2x1600000, .i32⟩ : BufTy).Contents (Elt Ideal)) (x2 : (⟨S1600000x128, .f32⟩ : BufTy).Contents (Elt Ideal)) (x3 : (⟨S256x256, .f32⟩ : BufTy).Contents (Elt Ideal)) (x4 : (⟨S256, .f32⟩ : BufTy).Contents (Elt Ideal)) (r : Fin 100000) (k : Fin 256) :
    val_main_v19 (F := Ideal) x0 x1 x2 x3 x4 (ix2 r k)
      = hidden0 x0 (val_main_v13 (F := Ideal) x1 x2) (colsLo x3) (colsHi x3) x4 r k := by
  rw [val_main_v19_apply, val_main_v16_apply, val_main_v18_apply, val_main_v17_apply]
  unfold hidden0
  show (∑ a : Fin 256, val_main_v14 (F := Ideal) x0 x1 x2 (lidx_main_v16 (ix2 r k) a)
        * val_main_v15 (F := Ideal) x3 (ridx_main_v16 (ix2 r k) a))
      + x4 (idx_main_v17 (idx_main_v18 (ix2 r k))) = _
  refine congrArg₂ (· + ·) ?_ (congrArg x4 (funext fun d => Fin.ext (by match d with | ⟨0, _⟩ => rfl)))
  rw [sum_split]
  refine congrArg₂ (· + ·) (Finset.sum_congr rfl fun a _ => ?_) (Finset.sum_congr rfl fun a _ => ?_)
  · have e1 : lidx_main_v16 (ix2 r k) (lo a) = ix2 r (lo a) :=
      funext fun d => Fin.ext (by match d with | ⟨0, _⟩ => rfl | ⟨1, _⟩ => rfl)
    rw [e1, joined_lo, val_main_v15_apply]
    exact congrArg (x0 (ix2 r a) * ·) (congrArg x3 (funext fun d => Fin.ext (by
      match d with
      | ⟨0, _⟩ => rfl
      | ⟨1, _⟩ => rfl)))
  · have e1 : lidx_main_v16 (ix2 r k) (hi a) = ix2 r (hi a) :=
      funext fun d => Fin.ext (by match d with | ⟨0, _⟩ => rfl | ⟨1, _⟩ => rfl)
    rw [e1, joined_hi, val_main_v15_apply]
    exact congrArg (val_main_v13 (F := Ideal) x1 x2 (ix2 r a) * ·) (congrArg x3 (funext fun d => Fin.ext (by
      match d with
      | ⟨0, _⟩ => rfl
      | ⟨1, _⟩ => rfl)))

/-! ## The result -/

/-- The reference's result array is the specification's `G` of its arguments and its aggregated array. -/
theorem result_eq (x0 : (⟨S100000x128, .f32⟩ : BufTy).Contents (Elt Ideal)) (x1 : (⟨S2x1600000, .i32⟩ : BufTy).Contents (Elt Ideal)) (x2 : (⟨S1600000x128, .f32⟩ : BufTy).Contents (Elt Ideal)) (x3 : (⟨S256x256, .f32⟩ : BufTy).Contents (Elt Ideal)) (x4 : (⟨S256, .f32⟩ : BufTy).Contents (Elt Ideal)) (x5 : (⟨S128x256, .f32⟩ : BufTy).Contents (Elt Ideal)) (x6 : (⟨S128, .f32⟩ : BufTy).Contents (Elt Ideal)) :
    val_main_v25 (F := Ideal) x0 x1 x2 x3 x4 x5 x6 = G x0 (val_main_v13 (F := Ideal) x1 x2) x3 x4 x5 x6 := by
  funext i
  obtain ⟨r, q, rfl⟩ : ∃ (r : Fin 100000) (q : Fin 128), i = ix2 r q := ⟨i 0, i 1, eq_ix2 i⟩
  rw [val_main_v25_apply, val_main_v22_apply, val_main_v24_apply, val_main_v23_apply]
  unfold G G0
  show (∑ k : Fin 256, val_main_v20 (F := Ideal) x0 x1 x2 x3 x4 (lidx_main_v22 (ix2 r q) k)
        * val_main_v21 (F := Ideal) x5 (ridx_main_v22 (ix2 r q) k))
      + x6 (idx_main_v23 (idx_main_v24 (ix2 r q))) = _
  refine congrArg₂ (· + ·) (Finset.sum_congr rfl fun k _ => ?_)
    (congrArg x6 (funext fun d => Fin.ext (by match d with | ⟨0, _⟩ => rfl)))
  have e1 : lidx_main_v22 (ix2 r q) k = ix2 r k :=
    funext fun d => Fin.ext (by match d with | ⟨0, _⟩ => rfl | ⟨1, _⟩ => rfl)
  rw [e1, val_main_v20_apply, hidden_eq, val_main_call0_v0_apply, val_main_call0_cst_apply, val_main_v21_apply]
  rw [show (FloatOps.ofBits FTy.f32 0#32 : Ideal FTy.f32) = 0 from Ideal.ofBits_zero_f32]
  exact congrArg (max (hidden0 x0 (val_main_v13 (F := Ideal) x1 x2) (colsLo x3) (colsHi x3) x4 r k) 0 * ·)
    (congrArg x5 (funext fun d => Fin.ext (by
      match d with
      | ⟨0, _⟩ => rfl
      | ⟨1, _⟩ => rfl)))

end Cert.ReferenceIdeal.RefValue

end
-- ==== Proof.KernelPayload.lean ====
/-
  The body's one stored value, read at an element, over the extended reals.

  At a grid point the body holds a block of 5000 node rows `xb` and the matching 5000 rows `ab` of the aggregated edge
  features, the two halves `wa`, `wb` of the first weight matrix (each 256 × 128), the biases and the second weight matrix.
  It transposes each weight matrix and multiplies, so element `(p, q)` of what it stores is

      (∑ k < 256, max ((∑ a < 128, xb p a · wa k a) + (∑ a < 128, ab p a · wb k a) + b1 k) 0 · w2 q k) + b2 q.

  Each matrix product into a zero accumulator is, exactly, the sum over the contracted axis of the products of the two
  operands' elements; a transpose swaps the two coordinates; the bias rows are repeated down the 5000 rows.
-/
import proofs.«154645_j15307263443166_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx

/-! ## The two matrix products at an element -/

/-- On the left operand's row axis the operand index is the output's row. -/
theorem mm_first_lhs0 (i : S5000x256.Idx) (q : dot_S5000x128_S128x256_S5000x256_1_0_0_1_n_n.contr.Idx) : (dot_S5000x128_S128x256_S5000x256_1_0_0_1_n_n.lhsIdx i q 0).val = (i 0).val := by
  unfold DotDims.lhsIdx
  rw [dif_neg (show ¬(0 : Fin S5000x128.rank) ∈ dot_S5000x128_S128x256_S5000x256_1_0_0_1_n_n.lhsBatch by decide),
    dif_pos (show (0 : Fin S5000x128.rank) ∈ dot_S5000x128_S128x256_S5000x256_1_0_0_1_n_n.lhsNonContracting by decide)]
  rfl
/-- On the right operand's column axis the operand index is the output's column. -/
theorem mm_first_rhs1 (i : S5000x256.Idx) (q : dot_S5000x128_S128x256_S5000x256_1_0_0_1_n_n.contr.Idx) : (dot_S5000x128_S128x256_S5000x256_1_0_0_1_n_n.rhsIdx i q 1).val = (i 1).val := by
  unfold DotDims.rhsIdx
  rw [dif_neg (show ¬(1 : Fin S128x256.rank) ∈ dot_S5000x128_S128x256_S5000x256_1_0_0_1_n_n.rhsBatch by decide),
    dif_pos (show (1 : Fin S128x256.rank) ∈ dot_S5000x128_S128x256_S5000x256_1_0_0_1_n_n.rhsNonContracting by decide)]
  rfl

/-- A 5000 × 128 block times a 128 × 256 matrix, into zeros: element `(p, c)` is the sum over the 128 shared indices. -/
theorem mm_first (l : FVec Ideal S5000x128 .f32) (r : FVec Ideal S128x256 .f32) (p : Fin 5000) (c : Fin 256) :
    matmul (F := Ideal) dot_S5000x128_S128x256_S5000x256_1_0_0_1_n_n none l r (constant (F := Ideal) S5000x256 .f32 0x00000000#32) (ix2 p c)
      = ∑ a : Fin 128, l (ix2 p a) * r (ix2 a c) := by
  simp only [matmul]
  rw [Ideal.matmul_constant_zero_apply, ← Equiv.sum_comp (contrEquiv1 dot_S5000x128_S128x256_S5000x256_1_0_0_1_n_n 128 rfl rfl).symm]
  refine Finset.sum_congr rfl fun a _ => ?_
  have ha := contrEquiv1_symm_val dot_S5000x128_S128x256_S5000x256_1_0_0_1_n_n 128 rfl rfl a
  have el : dot_S5000x128_S128x256_S5000x256_1_0_0_1_n_n.lhsIdx (ix2 p c) ((contrEquiv1 dot_S5000x128_S128x256_S5000x256_1_0_0_1_n_n 128 rfl rfl).symm a) = ix2 p a :=
    funext fun d => Fin.ext (by
      match d with
      | ⟨0, _⟩ => exact mm_first_lhs0 _ _
      | ⟨1, _⟩ => exact (dot_S5000x128_S128x256_S5000x256_1_0_0_1_n_n.lhsIdx_val_of_single rfl _ _).trans ha)
  have er : dot_S5000x128_S128x256_S5000x256_1_0_0_1_n_n.rhsIdx (ix2 p c) ((contrEquiv1 dot_S5000x128_S128x256_S5000x256_1_0_0_1_n_n 128 rfl rfl).symm a) = ix2 a c :=
    funext fun d => Fin.ext (by
      match d with
      | ⟨0, _⟩ => exact (dot_S5000x128_S128x256_S5000x256_1_0_0_1_n_n.rhsIdx_val_of_single rfl _ _).trans ha
      | ⟨1, _⟩ => exact mm_first_rhs1 _ _)
  rw [el, er]

/-- On the left operand's row axis the operand index is the output's row. -/
theorem mm_second_lhs0 (i : S5000x128.Idx) (q : dot_S5000x256_S256x128_S5000x128_1_0_0_1_n_n.contr.Idx) : (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide),
    dif_pos (show (0 : Fin S5000x256.rank) ∈ dot_S5000x256_S256x128_S5000x128_1_0_0_1_n_n.lhsNonContracting by decide)]
  rfl
/-- On the right operand's column axis the operand index is the output's column. -/
theorem mm_second_rhs1 (i : S5000x128.Idx) (q : dot_S5000x256_S256x128_S5000x128_1_0_0_1_n_n.contr.Idx) : (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide),
    dif_pos (show (1 : Fin S256x128.rank) ∈ dot_S5000x256_S256x128_S5000x128_1_0_0_1_n_n.rhsNonContracting by decide)]
  rfl

/-- A 5000 × 256 block times a 256 × 128 matrix, into zeros: element `(p, c)` is the sum over the 256 shared indices. -/
theorem mm_second (l : FVec Ideal S5000x256 .f32) (r : FVec Ideal S256x128 .f32) (p : Fin 5000) (c : Fin 128) :
    matmul (F := Ideal) dot_S5000x256_S256x128_S5000x128_1_0_0_1_n_n none l r (constant (F := Ideal) S5000x128 .f32 0x00000000#32) (ix2 p c)
      = ∑ a : Fin 256, l (ix2 p a) * r (ix2 a c) := by
  simp only [matmul]
  rw [Ideal.matmul_constant_zero_apply, ← Equiv.sum_comp (contrEquiv1 dot_S5000x256_S256x128_S5000x128_1_0_0_1_n_n 256 rfl rfl).symm]
  refine Finset.sum_congr rfl fun a _ => ?_
  have ha := contrEquiv1_symm_val dot_S5000x256_S256x128_S5000x128_1_0_0_1_n_n 256 rfl rfl a
  have el : dot_S5000x256_S256x128_S5000x128_1_0_0_1_n_n.lhsIdx (ix2 p c) ((contrEquiv1 dot_S5000x256_S256x128_S5000x128_1_0_0_1_n_n 256 rfl rfl).symm a) = ix2 p a :=
    funext fun d => Fin.ext (by
      match d with
      | ⟨0, _⟩ => exact mm_second_lhs0 _ _
      | ⟨1, _⟩ => exact (dot_S5000x256_S256x128_S5000x128_1_0_0_1_n_n.lhsIdx_val_of_single rfl _ _).trans ha)
  have er : dot_S5000x256_S256x128_S5000x128_1_0_0_1_n_n.rhsIdx (ix2 p c) ((contrEquiv1 dot_S5000x256_S256x128_S5000x128_1_0_0_1_n_n 256 rfl rfl).symm a) = ix2 a c :=
    funext fun d => Fin.ext (by
      match d with
      | ⟨0, _⟩ => exact (dot_S5000x256_S256x128_S5000x128_1_0_0_1_n_n.rhsIdx_val_of_single rfl _ _).trans ha
      | ⟨1, _⟩ => exact mm_second_rhs1 _ _)
  rw [el, er]

/-! ## The transposes and the bias rows at an element -/

/-- The transpose of a 256 × 128 matrix at `(a, k)` is the matrix at `(k, a)`. -/
theorem tr_first (w : FVec Ideal S256x128 .f32) (a : Fin 128) (k : Fin 256) :
    transpose S128x256 [1, 0] w transposes_S256x128_p1_0_S128x256 (ix2 a k) = w (ix2 k a) :=
  transpose_apply [1, 0] w transposes_S256x128_p1_0_S128x256 (ix2 a k) (ix2 k a) (fun b => match b with
    | ⟨0, _⟩ => rfl
    | ⟨1, _⟩ => rfl)

/-- The transpose of a 128 × 256 matrix at `(k, q)` is the matrix at `(q, k)`. -/
theorem tr_second (w : FVec Ideal S128x256 .f32) (k : Fin 256) (q : Fin 128) :
    transpose S256x128 [1, 0] w transposes_S128x256_p1_0_S256x128 (ix2 k q) = w (ix2 q k) :=
  transpose_apply [1, 0] w transposes_S128x256_p1_0_S256x128 (ix2 k q) (ix2 q k) (fun b => match b with
    | ⟨0, _⟩ => rfl
    | ⟨1, _⟩ => rfl)

/-- The hidden bias, made a row and repeated down 5000 rows, at `(p, k)` is its entry `k`. -/
theorem bias_first (b : FVec Ideal S256 .f32) (p : Fin 5000) (k : Fin 256) :
    broadcastTo S5000x256 (shapeCast S1x256 b shapeCasts_S256_S1x256) broadcasts_S1x256_S5000x256 (ix2 p k) = b (ix1 k) := by
  rw [broadcastTo_apply (shapeCast S1x256 b shapeCasts_S256_S1x256) broadcasts_S1x256_S5000x256 (ix2 p k)
    (ix2 (⟨0, Nat.one_pos⟩ : Fin 1) k) (fun a => match a with
      | ⟨0, _⟩ => by show 0 = if (1 : Nat) = 1 then 0 else _; rw [if_pos rfl]
      | ⟨1, _⟩ => by show k.val = if (256 : Nat) = 1 then 0 else k.val; rw [if_neg (by decide)])]
  exact shapeCast_apply b shapeCasts_S256_S1x256 (ix2 (⟨0, Nat.one_pos⟩ : Fin 1) k) (ix1 k)
    (by rewrite [Shape.rowMajor_val_one, Shape.rowMajor_val_two]; show k.val = 0 * 256 + k.val; omega)

/-- The output bias, made a row and repeated down 5000 rows, at `(p, q)` is its entry `q`. -/
theorem bias_second (b : FVec Ideal S128 .f32) (p : Fin 5000) (q : Fin 128) :
    broadcastTo S5000x128 (shapeCast S1x128 b shapeCasts_S128_S1x128) broadcasts_S1x128_S5000x128 (ix2 p q) = b (ix1 q) := by
  rw [broadcastTo_apply (shapeCast S1x128 b shapeCasts_S128_S1x128) broadcasts_S1x128_S5000x128 (ix2 p q)
    (ix2 (⟨0, Nat.one_pos⟩ : Fin 1) q) (fun a => match a with
      | ⟨0, _⟩ => by show 0 = if (1 : Nat) = 1 then 0 else _; rw [if_pos rfl]
      | ⟨1, _⟩ => by show q.val = if (128 : Nat) = 1 then 0 else q.val; rw [if_neg (by decide)])]
  exact shapeCast_apply b shapeCasts_S128_S1x128 (ix2 (⟨0, Nat.one_pos⟩ : Fin 1) q) (ix1 q)
    (by rewrite [Shape.rowMajor_val_one, Shape.rowMajor_val_two]; show q.val = 0 * 128 + q.val; omega)

/-! ## The stored value at an element -/

/-- Element `(p, q)` of the value the body stores: the second layer's sum over the 256 hidden units of the rectified
    hidden unit times the second weight, plus the output bias; the hidden unit is the two 128-term sums plus its bias. -/
theorem pay_apply (xb ab : Vec Ideal S5000x128 .f32) (wa wb : Vec Ideal S256x128 .f32) (b1 : Vec Ideal S256 .f32)
    (w2 : Vec Ideal S128x256 .f32) (b2 : Vec Ideal S128 .f32) (p : Fin 5000) (q : Fin 128) :
    k0_pay1 (F := Ideal) xb ab wa wb b1 w2 b2 (ix2 p q)
      = (∑ k : Fin 256, max (((∑ a : Fin 128, xb (ix2 p a) * wa (ix2 k a)) + ∑ a : Fin 128, ab (ix2 p a) * wb (ix2 k a))
            + b1 (ix1 k)) 0 * w2 (ix2 q k)) + b2 (ix1 q) := by
  unfold k0_pay1
  dsimp only
  rw [addf_apply, mm_second, bias_second]
  refine congrArg (· + b2 (ix1 q)) (Finset.sum_congr rfl fun k _ => ?_)
  rw [tr_second, maximumf_apply, addf_apply, addf_apply, mm_first, mm_first, bias_first, broadcast_apply]
  rw [show (FloatOps.ofBits FTy.f32 0#32 : Ideal FTy.f32) = 0 from Ideal.ofBits_zero_f32]
  have ta : ∀ a : Fin 128, transpose S128x256 [1, 0] wa transposes_S256x128_p1_0_S128x256 (ix2 a k) = wa (ix2 k a) :=
    fun a => tr_first wa a k
  have tb : ∀ a : Fin 128, transpose S128x256 [1, 0] wb transposes_S256x128_p1_0_S128x256 (ix2 a k) = wb (ix2 k a) :=
    fun a => tr_first wb a k
  simp only [shapeCast_self, ta, tb]

end Cert.KernelIdeal.Payload

end
-- ==== Proof.KernelValue.lean ====
/-
  The kernel's output array, from its blocks.

  The grid has 20 points. Point `t` holds rows `5000·t .. 5000·t + 4999` of the node features and of the aggregated edge
  features, and every point holds the two weight halves, the biases and the second weight matrix whole. What point `t`
  stores at `(p, q)` of its block (`Payload.pay_apply`) is therefore the node update `MlpSpec.G0` at row `5000·t + p`,
  column `q`, of the arrays the region is entered with (`point_eq`, `flushed_eq`). Row `r` lies in the block of point
  `r / 5000`, so the 20 blocks cover the output array (`cover`) and the array ends as `G0` of those arrays (`final`).

  Three of those arrays are written by host operations before the region: the aggregated features, and the two halves
  of the first weight matrix, which are its column ranges `0..127` and `128..255` (`cols_lo`, `cols_hi`). With them
  the array is `MlpSpec.G` of the arguments and the aggregated features (`run`).
-/
import proofs.«154645_j15307263443166_1_alg».proof.Proof.Gen.KernelIdeal.Value
import proofs.«154645_j15307263443166_1_alg».proof.Proof.KernelPayload
import proofs.«154645_j15307263443166_1_alg».proof.Proof.MlpSpec
import Idealize.ShloMosaic.Lib.StableHlo.Run

set_option maxRecDepth 16384

noncomputable section

namespace Cert.KernelIdeal.KernelValue

open Cert.KernelIdeal Cert.KernelIdeal.Gen Idealize.ShloMosaic Idealize.ShloMosaic.TcCoe Idealize.SL.Sem
open Idealize.ShloMosaic.ValueIdx Cert.MlpSpec
open Idealize.ShloMosaic.Pipeline (Dat)

/-! ## One element of one block -/

/-- If a block of rows `xb`, `ab` holds the rows of `X`, `A` that array index `i` names (block row `y 0`, column `a` is the
    array's entry at any index with row `i 0` and column `a`) and `y`, `i` have the same column, the stored value at `y`
    is the node update at `i`. -/
theorem point_eq (X A : Arr2 100000 128) (Wa Wb : Arr2 256 128) (B1 : Arr1 256) (W2 : Arr2 128 256) (B2 : Arr1 128)
    (xb ab : Vec Ideal S5000x128 .f32) (wa wb : Vec Ideal S256x128 .f32) (b1 : Vec Ideal S256 .f32)
    (w2 : Vec Ideal S128x256 .f32) (b2 : Vec Ideal S128 .f32)
    (y : S5000x128.Idx) (i : S100000x128.Idx)
    (hcol : (i 1).val = (y 1).val)
    (hx : ∀ (a : Fin 128) (k : S100000x128.Idx), (k 0).val = (i 0).val → (k 1).val = a.val → xb (ix2 (y 0) a) = X k)
    (ha : ∀ (a : Fin 128) (k : S100000x128.Idx), (k 0).val = (i 0).val → (k 1).val = a.val → ab (ix2 (y 0) a) = A k)
    (hwa : wa = Wa) (hwb : wb = Wb) (hb1 : b1 = B1) (hw2 : w2 = W2) (hb2 : b2 = B2) :
    k0_pay1 (F := Ideal) xb ab wa wb b1 w2 b2 y = G0 X A Wa Wb B1 W2 B2 i := by
  subst hwa hwb hb1 hw2 hb2
  have e1 : i 1 = y 1 := Fin.ext hcol
  obtain ⟨p, q, rfl⟩ : ∃ (p : Fin 5000) (q : Fin 128), y = ix2 p q := ⟨y 0, y 1, eq_ix2 y⟩
  rw [Payload.pay_apply]
  unfold G0 hidden0
  rw [e1]
  have hx' : ∀ a : Fin 128, xb (ix2 p a) = X (ix2 (i 0) a) := fun a => hx a (ix2 (i 0) a) rfl rfl
  have ha' : ∀ a : Fin 128, ab (ix2 p a) = A (ix2 (i 0) a) := fun a => ha a (ix2 (i 0) a) rfl rfl
  simp only [hx', ha']

/-! ## What a grid point writes back -/

variable (m : (ℓ : Loc nD τ sig) → Buf (Elt Ideal) ℓ) (ρ : Dev nD → PrngReg)

theorem zeros2 : (![0, 0] : Fin 2 → Nat) = fun _ => 0 := funext fun a => by fin_cases a <;> rfl
theorem zeros1 : (![0] : Fin 1 → Nat) = fun _ => 0 := funext fun a => by fin_cases a <;> rfl

/-- The printed index maps over the 20 grid points: the node rows, the aggregated rows and the output move together,
    block `t` at point `t`; every other window stays on its one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

/-- Over ANY arrays: the body's stored block, computed from the seven windows' blocks of those arrays at point `t`,
    is block `t` of the node update of the arrays. (Stated over variable arrays so that nothing about how the region's
    arrays were produced is ever consulted.) -/
theorem block_eq (X A : Arr2 100000 128) (Wa Wb : Arr2 256 128) (B1 : Arr1 256) (W2 : Arr2 128 256) (B2 : Arr1 128)
    (t : Fin cfg0.N) :
    (cfg0.win 7).cut (grid0.coords t)
        (out0_7 (F := Ideal) (((cfg0.win 0).blk t).view.read (Elt Ideal) X) (((cfg0.win 1).blk t).view.read (Elt Ideal) A) (((cfg0.win 2).blk t).view.read (Elt Ideal) Wa) (((cfg0.win 3).blk t).view.read (Elt Ideal) Wb)
          (((cfg0.win 4).blk t).view.read (Elt Ideal) B1) (((cfg0.win 5).blk t).view.read (Elt Ideal) W2) (((cfg0.win 6).blk t).view.read (Elt Ideal) B2))
      = ((cfg0.win 7).blk t).view.read (Elt Ideal) (G0 X A Wa Wb B1 W2 B2) := by
  unfold out0_7
  rw [View.canon_unit_zero zeros2]
  simp only [View.ld_unit_zero (S := S5000x128) zeros2, View.ld_unit_zero (S := S256x128) zeros2,
    View.ld_unit_zero (S := S128x256) zeros2, View.ld_unit_zero (S := S256) zeros1, View.ld_unit_zero (S := S128) zeros1]
  obtain ⟨e00, e01, e10, e11, e20, e21, e30, e31, e40, e50, e51, e60, e70, e71⟩ := idx_facts t
  refine funext fun (j : S5000x128.Idx) => ?_
  show k0_pay1 (F := Ideal) (((cfg0.win 0).blk t).view.read (Elt Ideal) X) (((cfg0.win 1).blk t).view.read (Elt Ideal) A) (((cfg0.win 2).blk t).view.read (Elt Ideal) Wa) (((cfg0.win 3).blk t).view.read (Elt Ideal) Wb)
      (((cfg0.win 4).blk t).view.read (Elt Ideal) B1) (((cfg0.win 5).blk t).view.read (Elt Ideal) W2) (((cfg0.win 6).blk t).view.read (Elt Ideal) B2) j
    = G0 X A Wa Wb B1 W2 B2 (((cfg0.win 7).blk t).view.emb j)
  refine point_eq X A Wa Wb B1 W2 B2 _ _ _ _ _ _ _ j (((cfg0.win 7).blk t).view.emb j) ?_ ?_ ?_ ?_ ?_ ?_ ?_ ?_
  · show win0_7.index t (1 : Fin 2) * 128 + 1 * (j 1).val = (j 1).val
    omega
  · intro a k h0 h1
    show X (((cfg0.win 0).blk t).view.emb (ix2 (j 0) a)) = X k
    have h0' : (k 0).val = win0_7.index t (0 : Fin 2) * 5000 + 1 * (j 0).val := h0
    have e : ((cfg0.win 0).blk t).view.emb (ix2 (j 0) a) = k := by
      funext d; apply Fin.ext
      match d with
      | ⟨0, _⟩ => show win0_0.index t (0 : Fin 2) * 5000 + 1 * (j 0).val = (k 0).val; omega
      | ⟨1, _⟩ => show win0_0.index t (1 : Fin 2) * 128 + 1 * a.val = (k 1).val; omega
    rw [e]
  · intro a k h0 h1
    show A (((cfg0.win 1).blk t).view.emb (ix2 (j 0) a)) = A k
    have h0' : (k 0).val = win0_7.index t (0 : Fin 2) * 5000 + 1 * (j 0).val := h0
    have e : ((cfg0.win 1).blk t).view.emb (ix2 (j 0) a) = k := by
      funext d; apply Fin.ext
      match d with
      | ⟨0, _⟩ => show win0_1.index t (0 : Fin 2) * 5000 + 1 * (j 0).val = (k 0).val; omega
      | ⟨1, _⟩ => show win0_1.index t (1 : Fin 2) * 128 + 1 * a.val = (k 1).val; omega
    rw [e]
  · funext y
    show Wa (((cfg0.win 2).blk t).view.emb y) = Wa y
    have e : ((cfg0.win 2).blk t).view.emb y = y := by
      funext d; apply Fin.ext
      match d with
      | ⟨0, _⟩ => show win0_2.index t (0 : Fin 2) * 256 + 1 * (y 0).val = (y 0).val; omega
      | ⟨1, _⟩ => show win0_2.index t (1 : Fin 2) * 128 + 1 * (y 1).val = (y 1).val; omega
    rw [e]
  · funext y
    show Wb (((cfg0.win 3).blk t).view.emb y) = Wb y
    have e : ((cfg0.win 3).blk t).view.emb y = y := by
      funext d; apply Fin.ext
      match d with
      | ⟨0, _⟩ => show win0_3.index t (0 : Fin 2) * 256 + 1 * (y 0).val = (y 0).val; omega
      | ⟨1, _⟩ => show win0_3.index t (1 : Fin 2) * 128 + 1 * (y 1).val = (y 1).val; omega
    rw [e]
  · funext y
    show B1 (((cfg0.win 4).blk t).view.emb y) = B1 y
    have e : ((cfg0.win 4).blk t).view.emb y = y := by
      funext d; apply Fin.ext
      match d with
      | ⟨0, _⟩ => show win0_4.index t (0 : Fin 1) * 256 + 1 * (y 0).val = (y 0).val; omega
    rw [e]
  · funext y
    show W2 (((cfg0.win 5).blk t).view.emb y) = W2 y
    have e : ((cfg0.win 5).blk t).view.emb y = y := by
      funext d; apply Fin.ext
      match d with
      | ⟨0, _⟩ => show win0_5.index t (0 : Fin 2) * 128 + 1 * (y 0).val = (y 0).val; omega
      | ⟨1, _⟩ => show win0_5.index t (1 : Fin 2) * 256 + 1 * (y 1).val = (y 1).val; omega
    rw [e]
  · funext y
    show B2 (((cfg0.win 6).blk t).view.emb y) = B2 y
    have e : ((cfg0.win 6).blk t).view.emb y = y := by
      funext d; apply Fin.ext
      match d with
      | ⟨0, _⟩ => show win0_6.index t (0 : Fin 1) * 128 + 1 * (y 0).val = (y 0).val; omega
    rw [e]

/-- The node update of the arrays the region is entered with. -/
abbrev entryUpdate (c : Dev nD) : Arr2 100000 128 :=
  G0 (V m c main_arg0) (V m c main_v13) (V m c main_v14) (V m c main_v15) (V m c main_arg4) (V m c main_arg5) (V m c main_arg6)

/-- What point `t` writes back is block `t` of the node update of the arrays at region entry. -/
theorem flushed_eq (c : Dev nD) (t : Fin cfg0.N) :
    (dats m 0 c).flushed 7 t = ((cfg0.win 7).blk t).view.read (Elt Ideal) (entryUpdate m c) := by
  rw [Value.flushed7]
  exact block_eq (V m c main_arg0) (V m c main_v13) (V m c main_v14) (V m c main_v15) (V m c main_arg4) (V m c main_arg5) (V m c main_arg6) t

/-! ## The blocks cover the array -/

/-- An array index is in point `t`'s block iff each coordinate is in the block's range on its axis. -/
theorem mem_blk (t : Fin cfg0.N) (i : S100000x128.Idx) :
    i ∈ ((cfg0.win 7).blk t).view.set ↔ ∀ a : Fin 2, win0_7.index t a * S5000x128.size a ≤ (i a).val
      ∧ (i a).val < win0_7.index t a * S5000x128.size a + S5000x128.size a := by
  show i ∈ ((View.whole main_v16).slice (win0_7.rect t)).set ↔ _
  rw [View.set_slice_whole, Rect.mem_set_unit]
  exact Iff.rfl

/-- Row `r` lies in the block of point `r / 5000`: every index of the array is in some point's block. -/
theorem cover (i : S100000x128.Idx) :
    ∃ t : Fin cfg0.N, (cfg0.win 7).flush t = true ∧ i ∈ ((cfg0.win 7).blk t).view.set := by
  have hi0 : (i 0).val < 100000 := (i 0).isLt
  have hi1 : (i 1).val < 128 := (i 1).isLt
  have ht : (i 0).val / 5000 < cfg0.N := by
    show (i 0).val / 5000 < grid0.N
    rw [N_0]; omega
  obtain ⟨-, -, -, -, -, -, -, -, -, -, -, -, e70, e71⟩ := idx_facts ⟨(i 0).val / 5000, ht⟩
  have e70' : win0_7.index ⟨(i 0).val / 5000, ht⟩ (0 : Fin 2) = (i 0).val / 5000 := e70
  refine ⟨⟨(i 0).val / 5000, ht⟩, flush0_7 _, ?_⟩
  rw [mem_blk]
  intro a
  match a with
  | ⟨0, _⟩ =>
    show win0_7.index ⟨(i 0).val / 5000, ht⟩ (0 : Fin 2) * 5000 ≤ (i 0).val
      ∧ (i 0).val < win0_7.index ⟨(i 0).val / 5000, ht⟩ (0 : Fin 2) * 5000 + 5000
    rw [e70']; omega
  | ⟨1, _⟩ =>
    show win0_7.index ⟨(i 0).val / 5000, ht⟩ (1 : Fin 2) * 128 ≤ (i 1).val
      ∧ (i 1).val < win0_7.index ⟨(i 0).val / 5000, ht⟩ (1 : Fin 2) * 128 + 128
    rw [e71]; omega

/-- After the run the output array is the node update of the arrays at region entry. -/
theorem final (c : Dev nD) : (dats m 0 c).arrAt 7 cfg0.N = entryUpdate m c :=
  (dats m 0 c).arrAt_eq_of_cover 7 (entryUpdate m c) (fun t _ => flushed_eq m c t) cover

/-! ## The arrays the host writes before the region -/

/-- The first window of weights is columns 0..127 of the first weight matrix. -/
theorem cols_lo (c : Dev nD) :
    (V m c main_v14 : S256x128.Idx → EReal) = colsLo (m ((c : Thread nD τ).loc main_arg3)) := by
  have e : (V m c main_v14 : S256x128.Idx → EReal)
      = extractStridedSlice S256x128 ![0, 0] (m ((c : Thread nD τ).loc main_arg3))
          Facts₀.slices_S256x256_S256x128_0_0 := by
    dsimp only [Gen.V, Gen.hostOps0]; after_results <;> rfl
  rw [e]
  funext j
  exact extractStridedSlice_apply ![0, 0] _ _ j (ix2 (j 0) (lo (j 1))) (fun a => match a with
    | ⟨0, _⟩ => by show (j 0).val = 0 + (j 0).val; omega
    | ⟨1, _⟩ => by show (j 1).val = 0 + (j 1).val; omega)

/-- The second window of weights is columns 128..255 of the first weight matrix. -/
theorem cols_hi (c : Dev nD) :
    (V m c main_v15 : S256x128.Idx → EReal) = colsHi (m ((c : Thread nD τ).loc main_arg3)) := by
  have e : (V m c main_v15 : S256x128.Idx → EReal)
      = extractStridedSlice S256x128 ![0, 128] (m ((c : Thread nD τ).loc main_arg3))
          Facts₀.slices_S256x256_S256x128_0_128 := by
    dsimp only [Gen.V, Gen.hostOps0]; after_results <;> rfl
  rw [e]
  funext j
  exact extractStridedSlice_apply ![0, 128] _ _ j (ix2 (j 0) (hi (j 1))) (fun a => match a with
    | ⟨0, _⟩ => by show (j 0).val = 0 + (j 0).val; omega
    | ⟨1, _⟩ => by show 128 + (j 1).val = 128 + (j 1).val; omega)

/-- After the run the output array is the node update of the argument arrays and the aggregated features. -/
theorem final_args (c : Dev nD) :
    (dats m 0 c).arrAt 7 cfg0.N = G (m ((c : Thread nD τ).loc main_arg0)) (V m c main_v13) (m ((c : Thread nD τ).loc main_arg3))
        (m ((c : Thread nD τ).loc main_arg4)) (m ((c : Thread nD τ).loc main_arg5)) (m ((c : Thread nD τ).loc main_arg6)) := by
  rw [final m c]
  show G0 _ _ _ _ _ _ _ = G0 _ _ (colsLo _) (colsHi _) _ _ _
  rw [cols_lo m c, cols_hi m c, V_main_arg0 m c, V_main_arg4 m c, V_main_arg5 m c, V_main_arg6 m c]

/-! ## The run -/

/-- Every weakly fair execution of the kernel program terminates with the output array at the node update of the
    arguments and the aggregated features, the arguments unchanged. -/
theorem run : θ_run defs (onTc (τ := τ) (main (F := Ideal))) ⟨m, fun _ => 0, ρ⟩ fun r => ∀ c : Dev nD,
      r.2.mem ((c : Thread nD τ).loc main_v16) = G (m ((c : Thread nD τ).loc main_arg0)) (V m c main_v13) (m ((c : Thread nD τ).loc main_arg3))
        (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final_args m c), (h c).2⟩) (Value.run_blocks m ρ)

end Cert.KernelIdeal.KernelValue

end
-- ==== Proof.Aggregate.lean ====
/-
  Both programs aggregate the edge features the same way.

  Before anything else each program sums, for every node, the feature rows of the edges that point at it (a scatter-add
  of the edge rows into zeros, indexed by the second row of the edge list), counts those edges the same way (a scatter-add
  of ones), clamps the count below by one and divides. The two programs spell this with the same operations, in the same
  order, on the same two arguments, so the array the kernel's region is entered with and the reference's intermediate
  array are one term; nothing about the scatter itself is needed, and it is never opened.
-/
import proofs.«154645_j15307263443166_1_alg».proof.Proof.Gen.KernelIdeal.Frame
import proofs.«154645_j15307263443166_1_alg».proof.Proof.Gen.ReferenceIdeal.Read
import Idealize.ShloMosaic.Lib.StableHlo.Run

noncomputable section

namespace Cert.Proof.Aggregate

open Idealize.ShloMosaic Idealize.ShloMosaic.TcCoe Idealize.SL.Sem

/-- The aggregated-features array the kernel's region is entered with is the reference's aggregated-features stage of
    the kernel program's edge-list and edge-feature arguments. -/
theorem entry_eq (m : (ℓ : Loc Cert.KernelIdeal.nD Cert.KernelIdeal.τ Cert.KernelIdeal.sig) → Buf (Elt Ideal) ℓ) (c : Dev Cert.KernelIdeal.nD) :
    (Cert.KernelIdeal.Gen.V m c Cert.KernelIdeal.main_v13 : Cert.KernelIdeal.S100000x128.Idx → EReal)
      = Cert.ReferenceIdeal.Read.val_main_v13 (F := Ideal) (m ((c : Thread Cert.KernelIdeal.nD Cert.KernelIdeal.τ).loc Cert.KernelIdeal.main_arg1))
          (m ((c : Thread Cert.KernelIdeal.nD Cert.KernelIdeal.τ).loc Cert.KernelIdeal.main_arg2)) := by
  dsimp only [Cert.KernelIdeal.Gen.V, Cert.KernelIdeal.Gen.hostOps0]
  after_results <;> rfl

end Cert.Proof.Aggregate

end
-- ==== Proof.lean ====
/-
  The kernel and its reference compute the same node update.

  Both programs first aggregate, for every node, the features of the edges pointing at it (a mean: the scatter-added
  edge rows divided by the clamped edge count), in the same operations on the same arguments (Proof/Aggregate.lean).
  With `agg` that array, `x` the node features, `W1` (256 × 256), `b1`, `W2` (128 × 256), `b2` the weights, both then
  compute, for node `r` and output column `j`,

      out r j = (∑ k < 256, max (h r k) 0 · W2 j k) + b2 j,
      h r k   = (∑ a < 128, x r a · W1 k a) + (∑ a < 128, agg r a · W1 k (128 + a)) + b1 k        (Proof/MlpSpec.lean).

  The kernel reads it off directly: it is handed the two column ranges of `W1` as separate matrices and adds two
  products, 5000 node rows per grid point, the 20 blocks covering the output (Proof/KernelPayload.lean,
  Proof/KernelValue.lean). The reference joins `x r` and `agg r` into one row of 256 entries and takes one product with
  the whole of `W1`; its 256-term sum splits at 128 into the kernel's two sums (Proof/RefValue.lean). The split only
  regroups a finite sum, which is valid for every extended real, so the inputs' finiteness is never used.

  The three frame claims are the generated frame runs (the reference's is its generated run with the result dropped);
  the idealization rewrote nothing, so the kernel's idealization claim is `True`.
-/
import proofs.«154645_j15307263443166_1_alg».proof.Defs
import proofs.«154645_j15307263443166_1_alg».proof.Proof.Gen.Kernel
import proofs.«154645_j15307263443166_1_alg».proof.Proof.Gen.Kernel.Skeleton
import proofs.«154645_j15307263443166_1_alg».proof.Proof.Gen.Kernel.Launch
import proofs.«154645_j15307263443166_1_alg».proof.Proof.Gen.Kernel.Points
import proofs.«154645_j15307263443166_1_alg».proof.Proof.Gen.Kernel.Frame
import proofs.«154645_j15307263443166_1_alg».proof.Proof.Gen.KernelIdeal
import proofs.«154645_j15307263443166_1_alg».proof.Proof.Gen.KernelIdeal.Skeleton
import proofs.«154645_j15307263443166_1_alg».proof.Proof.Gen.KernelIdeal.Launch
import proofs.«154645_j15307263443166_1_alg».proof.Proof.Gen.KernelIdeal.Points
import proofs.«154645_j15307263443166_1_alg».proof.Proof.Gen.KernelIdeal.Frame
import proofs.«154645_j15307263443166_1_alg».proof.Proof.Gen.ReferenceIdeal
import proofs.«154645_j15307263443166_1_alg».proof.Proof.Gen.Pre_finite_inputs
import proofs.«154645_j15307263443166_1_alg».proof.Proof.Gen.KernelIdeal.Value
import proofs.«154645_j15307263443166_1_alg».proof.Proof.Gen.ReferenceIdeal.Run
import proofs.«154645_j15307263443166_1_alg».proof.Proof.Gen.ReferenceIdeal.Read
import proofs.«154645_j15307263443166_1_alg».proof.Proof.MlpSpec
import proofs.«154645_j15307263443166_1_alg».proof.Proof.RefValue
import proofs.«154645_j15307263443166_1_alg».proof.Proof.KernelValue
import proofs.«154645_j15307263443166_1_alg».proof.Proof.Aggregate
import Idealize.ShloMosaic.Adequacy
import Idealize.ShloMosaic.Init

noncomputable section

namespace Cert.Proof

open Idealize.ShloMosaic Idealize.SL.Sem

/-- The kernel program runs and leaves its arguments unchanged: the generated frame run. -/
theorem frame_kernel : Cert.frame_Kernel := fun m ρ _ => Cert.Kernel.Gen.frame m ρ

/-- The idealized kernel program runs and leaves its arguments unchanged: the generated frame run. -/
theorem frame_kernel_ideal : Cert.frame_KernelIdeal := fun m ρ _ => Cert.KernelIdeal.Gen.frame m ρ

/-- The idealized reference runs and leaves its arguments unchanged: its generated run, the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the node update `MlpSpec.G` of the
    arguments and the aggregated features, element by element. -/
theorem algebraic : Cert.algebraic_KernelIdeal_ReferenceIdeal := by
  intro m ρ m' ρ' _ hagree
  refine ⟨fun c => MlpSpec.G (m ((c.tc : Thread Cert.KernelIdeal.nD Cert.KernelIdeal.τ).loc Cert.KernelIdeal.main_arg0)) (Cert.KernelIdeal.Gen.V m c Cert.KernelIdeal.main_v13)
      (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.KernelValue.run m ρ, ?_⟩
  refine (θ_run Cert.ReferenceIdeal.defs _ _).mono (fun _ h c => ⟨?_, (h c).2⟩)
    (Cert.ReferenceIdeal.Value.run (F := Ideal) m' ρ')
  obtain ⟨a0, a1, a2, a3, a4, a5, a6⟩ := hagree c
  rw [(h c).1, Cert.ReferenceIdeal.Read.val_main_v25_eq, Cert.ReferenceIdeal.RefValue.result_eq, a0, a1, a2, a3, a4, a5, a6,
    ← Cert.Proof.Aggregate.entry_eq m c]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
